-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) (main_arg1 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  main_v8
-- ==== Kernel.lean ====
abbrev S4x4096x128 : Shape := ⟨3, ![4, 4096, 128]⟩
abbrev S1x4096x128 : Shape := ⟨3, ![1, 4096, 128]⟩
abbrev S1x512x128 : Shape := ⟨3, ![1, 512, 128]⟩
abbrev S4096x128 : Shape := ⟨2, ![4096, 128]⟩
abbrev S512x128 : Shape := ⟨2, ![512, 128]⟩
abbrev S128x4096 : Shape := ⟨2, ![128, 4096]⟩
abbrev S512x4096 : Shape := ⟨2, ![512, 4096]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x512x128, .f32⟩
  | .local _ .vmem, ⟨5, _⟩ => ⟨S1x512x128, .f32⟩
  | .local _ .vmem, ⟨6, _⟩ => ⟨S4096x128, .bf16⟩
  | .local _ .vmem, ⟨7, _⟩ => ⟨S4096x128, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  h_S1x512x128 : 0 < S1x512x128.numel
  shapeCasts_S1x512x128_S512x128 : S1x512x128.ShapeCasts S512x128
  transposes_S4096x128_p1_0_S128x4096 : S4096x128.Transposes [1, 0] S128x4096
  reduces_S512x4096_S512 : S512x4096.Reduces [1] S512
  shapeCasts_S512_S512x1 : S512.ShapeCasts S512x1
  broadcasts_S512x1_S512x4096 : S512x1.Broadcasts S512x4096
  broadcasts_S512x1_S512x128 : S512x1.Broadcasts S512x128
  inb_S1x512x128_S1x512x128_0_0_0 : ∀ a, (![0, 0, 0] : Fin 3 → Nat) a + S1x512x128.size a ≤ S1x512x128.size a
  shapeCasts_S512x128_S1x512x128 : S512x128.ShapeCasts S1x512x128
  dot_S512x128_S128x4096_S512x4096_1_0_0_1_n_n_wf : DotDims.WF S512x128 S128x4096 S512x4096 [1] [0] [0] [1] [] []
  dot_S512x4096_S4096x128_S512x128_1_0_0_1_n_n_wf : DotDims.WF S512x4096 S4096x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S4x4096x128.size a
  hwx0_2 : ∀ i : grid0.Coords, EltTy.bits .f32 = 32 ∨ (Rect.block (s := S4x4096x128) S1x512x128.size (cc0_transform_2 i) (hinb0_2 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x128, .f32⟩
  | .hbm, ⟨36, _⟩ => ⟨S4x4096x128, .f32⟩
  | .hbm, ⟨37, _⟩ => ⟨S4x4096x128, .f32⟩
  | .hbm, ⟨38, _⟩ => ⟨S_, .f32⟩
  | .hbm, ⟨39, _⟩ => ⟨S4x4096x128, .f32⟩
  | .hbm, ⟨40, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x4096_S4x4096x4096_0_2_1 : S4x4096x4096.Transposes [0, 2, 1] S4x4096x4096
  bcast_S_S4x4096x128 : S_.BroadcastsInDim S4x4096x128 (![] : Fin 0 → Fin S4x4096x128.rank)
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Pieces.lean ====
import proofs.«147547_j70214125355259_2_alg».proof.Proof.Gen.KernelIdeal.Frame
import Idealize.ShloMosaic.Lib.Pipeline.Value
import Idealize.ShloMosaic.Lib.Tactic

/-!
What one grid point of the kernel leaves behind, as values.

A grid point `(b, i)` sees the whole `[1, 4096, 128]` blocks `x0`, `x1` of batch `b` of the two arguments. At `i = 0` it
first stores a narrowed copy of each block into its two carried buffers; at every `i` it takes rows
`512·i … 512·i + 511` of each block as queries (`qrows`), reads the two carried buffers as keys and values, and stores
one `[1, 512, 128]` block of results. So at `i = 0` the carried buffers end as the narrowed copies of this point's
blocks and the output is computed from those copies; at `i ≠ 0` the carried buffers are untouched and the output is
computed from what they held before.
-/

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 512 rows of a batch's block that grid point `i` takes as its queries: rows `512·i₁ + r`. -/
def qrows (i : grid0.Coords) (x : Vec F S1x4096x128 .f32) : Vec F S1x512x128 .f32 :=
  View.ld x (Rect.unit (s := S1x4096x128) (k0_off1 i) S1x512x128.size (k0_off1_inb i))

/-- The block of results a grid point stores, from the blocks of the two arguments and the two carried buffers
    (`ks` holding the first argument's rows, `kg` the second's). -/
def outBlock (i : grid0.Coords) (x0 x1 : Vec F S1x4096x128 .f32) (ks kg : Vec F S4096x128 .bf16) : Vec F S1x512x128 .f32 :=
  k0_pay1 ks (k0_pay4 (qrows i x0) kg) (k0_pay5 (qrows i x1) ks)

/-- At a first point of a batch the first carried buffer ends as the narrowed copy of the first argument's block. -/
theorem carried0_first (c : Dev nD) (i : grid0.Coords) (a2 : Memref sig .tc .vmem S1x4096x128 .f32) (h2 : a2.IsWhole)
    (a3 : Memref sig .tc .vmem S1x4096x128 .f32) (h3 : a3.IsWhole) (a4 : Memref sig .tc .vmem S1x512x128 .f32) (h4 : a4.IsWhole)
    (a5 : Memref sig .tc .vmem S4096x128 .bf16) (h5 : a5.IsWhole) (a6 : Memref sig .tc .vmem S4096x128 .bf16) (h6 : a6.IsWhole)
    (hc : cond0_0 i) (x0 x1 : Vec F S1x4096x128 .f32) :
    sout0_A_0 c i a2 h2 a3 h3 a4 h4 a5 h5 a6 h6 hc x0 x1 = k0_pay2 x0 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero hz2]
  simp only [View.readAt_eq_ld, h2.read_unread, View.ld_unit_zero (S := S1x4096x128) hz3]

/-- At a first point of a batch the second carried buffer ends as the narrowed copy of the second argument's block. -/
theorem carried1_first (c : Dev nD) (i : grid0.Coords) (a2 : Memref sig .tc .vmem S1x4096x128 .f32) (h2 : a2.IsWhole)
    (a3 : Memref sig .tc .vmem S1x4096x128 .f32) (h3 : a3.IsWhole) (a4 : Memref sig .tc .vmem S1x512x128 .f32) (h4 : a4.IsWhole)
    (a5 : Memref sig .tc .vmem S4096x128 .bf16) (h5 : a5.IsWhole) (a6 : Memref sig .tc .vmem S4096x128 .bf16) (h6 : a6.IsWhole)
    (hc : cond0_0 i) (x0 x1 : Vec F S1x4096x128 .f32) :
    sout0_A_1 c i a2 h2 a3 h3 a4 h4 a5 h5 a6 h6 hc x0 x1 = k0_pay3 x1 := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero hz2]
  simp only [View.readAt_eq_ld, h3.read_unread, View.ld_unit_zero (S := S1x4096x128) hz3]

/-- At a first point of a batch the stored block is computed from the narrowed copies just made. -/
theorem out_first (c : Dev nD) (i : grid0.Coords) (a2 : Memref sig .tc .vmem S1x4096x128 .f32) (h2 : a2.IsWhole)
    (a3 : Memref sig .tc .vmem S1x4096x128 .f32) (h3 : a3.IsWhole) (a4 : Memref sig .tc .vmem S1x512x128 .f32) (h4 : a4.IsWhole)
    (a5 : Memref sig .tc .vmem S4096x128 .bf16) (h5 : a5.IsWhole) (a6 : Memref sig .tc .vmem S4096x128 .bf16) (h6 : a6.IsWhole)
    (hc : cond0_0 i) (x0 x1 : Vec F S1x4096x128 .f32) :
    out0_A_2 c i a2 h2 a3 h3 a4 h4 a5 h5 a6 h6 hc x0 x1 = outBlock i x0 x1 (k0_pay2 x0) (k0_pay3 x1) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz3]
  simp only [View.readCov_unit_zero (S := S4096x128) _ hz2, View.readAt_eq_ld, h2.read_unread, h3.read_unread,
    View.ld_unit_zero (S := S1x4096x128) hz3]
  rfl

/-- At a later point of a batch the stored block is computed from what the carried buffers held before. -/
theorem out_later (c : Dev nD) (i : grid0.Coords) (a2 : Memref sig .tc .vmem S1x4096x128 .f32) (h2 : a2.IsWhole)
    (a3 : Memref sig .tc .vmem S1x4096x128 .f32) (h3 : a3.IsWhole) (a4 : Memref sig .tc .vmem S1x512x128 .f32) (h4 : a4.IsWhole)
    (a5 : Memref sig .tc .vmem S4096x128 .bf16) (h5 : a5.IsWhole) (a6 : Memref sig .tc .vmem S4096x128 .bf16) (h6 : a6.IsWhole)
    (hc : ¬cond0_0 i) (x0 x1 : Vec F S1x4096x128 .f32) (xs0 xs1 : Vec F S4096x128 .bf16) :
    out0_B_2 c i a2 h2 a3 h3 a4 h4 a5 h5 a6 h6 hc x0 x1 xs0 xs1 = outBlock i x0 x1 xs0 xs1 := by
  unfold out0_B_2
  rw [View.read_writes_eq_canon _ _ _ (cover0_B_2 c i a2 h2 a3 h3 a4 h4 a5 h5 a6 h6 hc x0 x1 xs0 xs1)]
  unfold kernelRun0_B
  dsimp only
  sl_unfold_words
  rw [View.canon_unit_zero hz3]
  simp only [View.readAt_eq_ld, h2.read_unread, h3.read_unread, h5.read_unread, h6.read_unread,
    View.ld_unit_zero (S := S4096x128) hz2]
  rfl

end Cert.KernelIdeal.Pieces

end
-- ==== Proof.Spec.lean ====
import Idealize.ShloMosaic.Lib.ValueIdx
import Idealize.ShloMosaic.PureOps.Ideal.Laws

/-!
Two-sided softmax attention over the extended reals, stated once for both programs.

For a batch `b`, the similarity of query row `n` of one array with key row `j` of the other is the inner product
of the two rows over the 128 features, times a fixed factor. A row of similarities `s` is turned into positive
weights `exp (s j - max s)`, and the weighted average of the value rows `g j` is
`(∑ j, w j · g j) / (∑ j, w j)`. The result at `(b, n, d)` is one half of the sum of two such averages: rows of the
second array weighted by the similarities of row `n` of the first against them, and rows of the first array
weighted by the similarities of row `n` of the second against them.

The average can be written with the division after the weighted sum (`avgLate`) or with every weight divided by the
normalizing sum first (`avgEarly`, a softmax followed by a product); they agree when all entries are real numbers.
-/

noncomputable section

namespace Cert.SoftAvg

open Idealize.ShloMosaic Idealize.ShloMosaic.ValueIdx

/-- The factor every inner product is multiplied by. -/
abbrev scale : EReal := Ideal.ofBits .f32 0x3DB504F3#32
/-- The value a row's maximum is folded from. -/
abbrev floor : EReal := Ideal.ofBits .f32 0xFF800000#32
/-- The factor of the final sum. -/
abbrev half : EReal := Ideal.ofBits .f32 0x3F000000#32

/-- The scaled inner product of a query row and a key row. -/
def sim {D : ℕ} (q k : Fin D → EReal) : EReal := (∑ e, q e * k e) * scale

/-- The largest entry of a row, folded from `floor`. -/
def rowMax {M : ℕ} (s : Fin M → EReal) : EReal := (Finset.univ : Finset (Fin M)).fold max floor s

/-- The weight of entry `j`: the exponential of its distance below the row's maximum. -/
def wt {M : ℕ} (s : Fin M → EReal) (j : Fin M) : EReal := Ideal.exp (s j - rowMax s)

/-- The weighted average of `g` with the normalizing sum divided out once, after the weighted sum. -/
def avgLate {M : ℕ} (s g : Fin M → EReal) : EReal := Ideal.div (∑ j, wt s j * g j) (∑ j, wt s j)

/-- The weighted average of `g` with each weight divided by the normalizing sum first; the maximum is compared with
    `floor` once more and the normalizing sum is counted from zero, as a softmax over a row is usually written. -/
def avgEarly {M : ℕ} (s g : Fin M → EReal) : EReal :=
  ∑ j, Ideal.div (Ideal.exp (s j - max floor (rowMax s)))
      (Ideal.ofBits .f32 0x00000000#32 + ∑ j', Ideal.exp (s j' - max floor (rowMax s))) * g j

/-- The result at batch `b`, row `n`, feature `d`. -/
def out (S G : (⟨3, ![4, 4096, 128]⟩ : Shape).Idx → EReal) (b : Fin 4) (n : Fin 4096) (d : Fin 128) : EReal :=
  half * (avgLate (fun j => sim (fun e => S (ix3 b n e)) (fun e => G (ix3 b j e))) (fun j => G (ix3 b j d))
        + avgLate (fun j => sim (fun e => G (ix3 b n e)) (fun e => S (ix3 b j e))) (fun j => S (ix3 b j d)))

/-- The whole result array. -/
def outArr (S G : (⟨3, ![4, 4096, 128]⟩ : Shape).Idx → EReal) : (⟨3, ![4, 4096, 128]⟩ : Shape).Idx → EReal :=
  fun i => out S G (i 0) (i 1) (i 2)

end Cert.SoftAvg

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Payload.lean ====
import proofs.«147547_j70214125355259_2_alg».proof.Proof.Gen.KernelIdeal.Skeleton
import proofs.«147547_j70214125355259_2_alg».proof.Proof.Spec
import proofs.«147547_j70214125355259_2_alg».proof.Proof.LibPlainDot
import proofs.«147547_j70214125355259_2_alg».proof.Proof.LibColumn
import Idealize.ShloMosaic.Lib.ValueLayout
import Idealize.ShloMosaic.PureOps.Ideal.Laws

/-!
The arithmetic of one grid point, read at an index over the extended reals.

The body's arithmetic is three steps applied twice. `scores q k`: the `[512, 4096]` matrix of inner products of 512 query
rows with 4096 key rows, times the fixed factor. `shift s`: every row of `s` lowered by its own maximum. `average z v`:
with weights `exp z`, the weighted sums of the 4096 value rows `v` divided by the row sums of the weights. The stored
block is one half of the sum of `average (shift (scores q₀ k₁)) k₁` and `average (shift (scores q₁ k₀)) k₀`.
Read at row `r` and feature `d` each average is `avgLate` of that row's similarities and the values' column `d`.
-/

noncomputable section

namespace Cert.KernelIdeal.Payload

open Cert.KernelIdeal Cert.KernelIdeal.Gen Cert.SoftAvg
open Idealize.ShloMosaic Idealize.ShloMosaic.ValueIdx

section AnyFloat

variable {F : FTy → Type} [FloatOps F]

/-- A `[1, 512, 128]` block of rows as a `[512, 128]` matrix in the narrow format. -/
def queries (x : Vec F S1x512x128 .f32) : FVec F S512x128 .bf16 :=
  truncf .bf16 (shapeCast S512x128 x shapeCasts_S1x512x128_S512x128) bitsLt_bf16_f32

/-- The scaled inner products of 512 query rows with 4096 key rows. -/
def scores (q : FVec F S512x128 .bf16) (k : FVec F S4096x128 .bf16) : FVec F S512x4096 .f32 :=
  mulf (matmul dot_S512x128_S128x4096_S512x4096_1_0_0_1_n_n none q
      (transpose S128x4096 [1, 0] k transposes_S4096x128_p1_0_S128x4096) (constant S512x4096 .f32 0x00000000#32))
    (broadcast S512x4096 (Scalar.ofBits .f32 0x3DB504F3#32))

/-- Every row lowered by its own maximum. -/
def shift (s : FVec F S512x4096 .f32) : FVec F S512x4096 .f32 :=
  subf s (broadcastTo S512x4096
    (shapeCast S512x1 (multiReduction .maximumf [1] S512 s 0xFF800000#32 reduces_S512x4096_S512 (.inl rfl) rfl) shapeCasts_S512_S512x1)
    broadcasts_S512x1_S512x4096)

/-- The weighted sums of the value rows, divided by the row sums of the weights `exp z`. -/
def average (z : FVec F S512x4096 .f32) (v : FVec F S4096x128 .bf16) : FVec F S512x128 .f32 :=
  divf (matmul dot_S512x4096_S4096x128_S512x128_1_0_0_1_n_n none (truncf .bf16 (exp z) bitsLt_bf16_f32) v
      (constant S512x128 .f32 0x00000000#32))
    (broadcastTo S512x128
      (shapeCast S512x1 (multiReduction .add [1] S512 (exp z) 0x00000000#32 reduces_S512x4096_S512 (.inl rfl) rfl) shapeCasts_S512_S512x1)
      broadcasts_S512x1_S512x128)

/-- The body's first average is these steps of its loads. -/
theorem first_eq (v6 : Vec F S1x512x128 .f32) (v13 : Vec F S4096x128 .bf16) :
    k0_pay4 v6 v13 = average (shift (scores (queries v6) v13)) v13 := rfl

/-- The body's second row-shifted score matrix is these steps of its loads. -/
theorem second_eq (v10 : Vec F S1x512x128 .f32) (v14 : Vec F S4096x128 .bf16) :
    k0_pay5 v10 v14 = shift (scores (queries v10) v14) := rfl

/-- The stored block: one half of the sum of the two averages, as a `[1, 512, 128]` block. -/
theorem stored_eq (v14 : Vec F S4096x128 .bf16) (v29 : FVec F S512x128 .f32) (v37 : FVec F S512x4096 .f32) :
    k0_pay1 v14 v29 v37 = shapeCast S1x512x128
      (mulf (broadcast S512x128 (Scalar.ofBits .f32 0x3F000000#32)) (addf v29 (average v37 v14))) shapeCasts_S512x128_S1x512x128 := rfl

/-- The narrowed copy of a block kept between grid points. -/
theorem copy_eq (v51 : Vec F S1x4096x128 .f32) :
    k0_pay2 v51 = shapeCast S4096x128 (truncf .bf16 (shapeCast S4096x128 v51 shapeCasts_S1x4096x128_S4096x128) bitsLt_bf16_f32)
      shapeCasts_S4096x128_S4096x128 := rfl

theorem copy_eq' (v57 : Vec F S1x4096x128 .f32) :
    k0_pay3 v57 = shapeCast S4096x128 (truncf .bf16 (shapeCast S4096x128 v57 shapeCasts_S1x4096x128_S4096x128) bitsLt_bf16_f32)
      shapeCasts_S4096x128_S4096x128 := rfl

end AnyFloat

/-! ## Read at an index, over the extended reals -/

/-- The two printed contraction records are the plain `[M, K] × [K, N]` dimension numbers. -/
theorem dot_scores_plain : dot_S512x128_S128x4096_S512x4096_1_0_0_1_n_n = DotDims.plain 512 128 4096 := rfl
theorem dot_values_plain : dot_S512x4096_S4096x128_S512x128_1_0_0_1_n_n = DotDims.plain 512 4096 128 := rfl

theorem queries_apply (x : FVec Ideal S1x512x128 .f32) (r : Fin 512) (e : Fin 128) :
    queries (F := Ideal) x (ix2 r e) = x (ix3 (0 : Fin 1) r e) :=
  shapeCast_1ab_ab_apply x shapeCasts_S1x512x128_S512x128 r e

theorem copy_apply (x : FVec Ideal S1x4096x128 .f32) (j : Fin 4096) (e : Fin 128) :
    k0_pay2 (F := Ideal) x (ix2 j e) = x (ix3 (0 : Fin 1) j e) := by
  rw [copy_eq, shapeCast_self]
  exact shapeCast_1ab_ab_apply x shapeCasts_S1x4096x128_S4096x128 j e

theorem copy_apply' (x : FVec Ideal S1x4096x128 .f32) (j : Fin 4096) (e : Fin 128) :
    k0_pay3 (F := Ideal) x (ix2 j e) = x (ix3 (0 : Fin 1) j e) := by
  rw [copy_eq', shapeCast_self]
  exact shapeCast_1ab_ab_apply x shapeCasts_S1x4096x128_S4096x128 j e

/-- A score is the scaled inner product of its query row and its key row. -/
theorem scores_apply (q : FVec Ideal S512x128 .bf16) (k : FVec Ideal S4096x128 .bf16) (r : Fin 512) (j : Fin 4096) :
    scores q k (ix2 r j) = sim (fun e => q (ix2 r e)) (fun e => k (ix2 j e)) := by
  unfold scores sim
  show FloatOps.matmul dot_S512x128_S128x4096_S512x4096_1_0_0_1_n_n none q
      (transpose S128x4096 [1, 0] k transposes_S4096x128_p1_0_S128x4096) (constant S512x4096 .f32 0x00000000#32) (ix2 r j) * scale = _
  refine congrArg (· * scale) ?_
  rw [dot_scores_plain]
  refine (PlainDot.matmul_zero_apply 512 128 4096 none q _ r j).trans ?_
  exact Finset.sum_congr rfl fun e _ => congrArg (q (ix2 r e) * ·) (transpose_ix2_apply k transposes_S4096x128_p1_0_S128x4096 e j)

/-- The index a row reduction reads: the kept row with the reduced coordinate put back. -/
theorem lift_row (r : Fin 512) (j : Fin 4096) : reduces_S512x4096_S512.lift (ix1 r) j = ix2 r j :=
  funext fun a => Fin.ext (by match a with | ⟨0, _⟩ => rfl | ⟨1, _⟩ => rfl)

/-- A shifted entry is the entry minus its row's maximum. -/
theorem shift_apply (s : FVec Ideal S512x4096 .f32) (r : Fin 512) (j : Fin 4096) :
    shift s (ix2 r j) = s (ix2 r j) - rowMax (fun j' => s (ix2 r j')) := by
  unfold shift
  show s (ix2 r j) - broadcastTo S512x4096 _ broadcasts_S512x1_S512x4096 (ix2 r j) = _
  refine congrArg (s (ix2 r j) - ·) ?_
  refine (broadcastTo_a1_ab_apply _ broadcasts_S512x1_S512x4096 r j).trans ?_
  refine (shapeCast_a_a1_apply _ shapeCasts_S512_S512x1 r (0 : Fin 1)).trans ?_
  refine (Ideal.multiReduction_maximumf_single s 0xFF800000#32 reduces_S512x4096_S512 (.inl rfl) rfl (ix1 r)).trans ?_
  unfold rowMax
  exact congrArg (fun f => (Finset.univ : Finset (Fin 4096)).fold max floor f) (funext fun j' => congrArg s (lift_row r j'))

/-- An average at row `r`, feature `d`. -/
theorem average_apply (z : FVec Ideal S512x4096 .f32) (v : FVec Ideal S4096x128 .bf16) (r : Fin 512) (d : Fin 128) :
    average z v (ix2 r d)
      = Ideal.div (∑ j : Fin 4096, Ideal.exp (z (ix2 r j)) * v (ix2 j d)) (∑ j : Fin 4096, Ideal.exp (z (ix2 r j))) := by
  unfold average
  show Ideal.div (FloatOps.matmul dot_S512x4096_S4096x128_S512x128_1_0_0_1_n_n none (truncf .bf16 (exp z) bitsLt_bf16_f32) v
      (constant S512x128 .f32 0x00000000#32) (ix2 r d)) (broadcastTo S512x128 _ broadcasts_S512x1_S512x128 (ix2 r d)) = _
  congr 1
  · rw [dot_values_plain]
    exact PlainDot.matmul_zero_apply 512 4096 128 none _ v r d
  · refine (broadcastTo_a1_ab_apply _ broadcasts_S512x1_S512x128 r d).trans ?_
    refine (shapeCast_a_a1_apply _ shapeCasts_S512_S512x1 r (0 : Fin 1)).trans ?_
    refine (Ideal.multiReduction_add_single (exp z) 0x00000000#32 reduces_S512x4096_S512 (.inl rfl) rfl (ix1 r)).trans ?_
    exact Finset.sum_congr rfl fun j _ => congrArg (fun i => Ideal.exp (z i)) (lift_row r j)

/-- Scores, shifted and averaged: the softmax average of the value column with the division last. -/
theorem attend_apply (q : FVec Ideal S512x128 .bf16) (k : FVec Ideal S4096x128 .bf16) (r : Fin 512) (d : Fin 128) :
    average (shift (scores q k)) k (ix2 r d)
      = avgLate (fun j => sim (fun e => q (ix2 r e)) (fun e => k (ix2 j e))) (fun j => k (ix2 j d)) := by
  rw [average_apply]
  unfold avgLate wt
  simp only [shift_apply, scores_apply]

/-- The stored block at row `r`, feature `d`. -/
theorem stored_apply (x0 x1 : FVec Ideal S1x512x128 .f32) (ks kg : FVec Ideal S4096x128 .bf16) (r : Fin 512) (d : Fin 128) :
    k0_pay1 (F := Ideal) ks (k0_pay4 (F := Ideal) x0 kg) (k0_pay5 (F := Ideal) x1 ks) (ix3 (0 : Fin 1) r d)
      = half * (avgLate (fun j => sim (fun e => x0 (ix3 (0 : Fin 1) r e)) (fun e => kg (ix2 j e))) (fun j => kg (ix2 j d))
              + avgLate (fun j => sim (fun e => x1 (ix3 (0 : Fin 1) r e)) (fun e => ks (ix2 j e))) (fun j => ks (ix2 j d))) := by
  rw [stored_eq, first_eq, second_eq]
  refine (shapeCast_ab_1ab_apply _ shapeCasts_S512x128_S1x512x128 (0 : Fin 1) r d).trans ?_
  show half * (average (shift (scores (queries x0) kg)) kg (ix2 r d) + average (shift (scores (queries x1) ks)) ks (ix2 r d)) = _
  rw [attend_apply, attend_apply]
  simp only [queries_apply]

end Cert.KernelIdeal.Payload

end
-- ==== Proof.Blocks.lean ====
import proofs.«147547_j70214125355259_2_alg».proof.Proof.Gen.KernelIdeal.Value
import proofs.«147547_j70214125355259_2_alg».proof.Proof.Pieces
import proofs.«147547_j70214125355259_2_alg».proof.Proof.Payload
import proofs.«147547_j70214125355259_2_alg».proof.Proof.Spec

/-!
From grid points to the whole result array, over the extended reals.

The 32 grid points are numbered `t = 8·b + i`: batch `b = t / 8`, row block `i = t % 8`. Both input windows show the
whole batch `b` of their array at every point of that batch, and the output window's block at `t` is rows
`512·i … 512·i + 511` of batch `b`. By induction on `t` the two carried buffers hold, after point `t`, the narrowed
copies of batch `t / 8` of the two arguments: a first point of a batch stores them, a later point leaves them alone
and `(t - 1) / 8 = t / 8`. Hence every point stores the block of the one function `outArr` of the two argument arrays,
the 32 blocks cover the result array, and the result array ends as `outArr` of the arguments.
-/

noncomputable section

namespace Cert.KernelIdeal.Blocks

open Cert.KernelIdeal Cert.KernelIdeal.Gen Cert.KernelIdeal.Pieces Cert.KernelIdeal.Payload Cert.SoftAvg
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hN : cfg0.N = 32 := N_0

/-- Where the three windows sit at grid point `t`, and the point's row-block coordinate: decided over the 32 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ ((grid0.coords t) 1).val = t.val % 8 :=
  (by decide +kernel : ∀ t : Fin grid0.N, _)

/-- The batch of grid point `t`. -/
def bOf (t : Fin cfg0.N) : Fin 4 := ⟨t.val / 8, by have := t.isLt; have := hN; omega⟩

/-- Batch `b` of an argument array, as the `[1, 4096, 128]` block a window shows. -/
def batch (A : S4x4096x128.Idx → EReal) (b : Fin 4) : Vec Ideal S1x4096x128 .f32 := fun y => A (ix3 b (y 1) (y 2))

theorem batch_apply (A : S4x4096x128.Idx → EReal) (b : Fin 4) (u : Fin 1) (j : Fin 4096) (e : Fin 128) :
    batch A b (ix3 u j e) = A (ix3 b j e) := rfl

/-- The first window's block at `t` is batch `t / 8` of the first argument. -/
theorem iblk0_eq (c : Dev nD) (t : Fin cfg0.N) :
    (iblk m c 0 t : Vec Ideal S1x4096x128 .f32) = batch (V m c main_arg0) (bOf t) := by
  obtain ⟨e0, e1, e2, -⟩ := idx_facts t
  funext y
  unfold iblk batch
  rw [View.read_apply]
  show V m c main_arg0 (((cfg0.win 0).blk t).view.emb y) = V m c main_arg0 (ix3 (bOf t) (y 1) (y 2))
  refine congrArg (V m c main_arg0) (funext fun a => Fin.ext ?_)
  match a with
  | ⟨0, _⟩ => show win0_0.index t (0 : Fin 3) * 1 + 1 * (y 0).val = t.val / 8; have hy : (y 0).val < 1 := (y 0).isLt; omega
  | ⟨1, _⟩ => show win0_0.index t (1 : Fin 3) * 4096 + 1 * (y 1).val = (y 1).val; omega
  | ⟨2, _⟩ => show win0_0.index t (2 : Fin 3) * 128 + 1 * (y 2).val = (y 2).val; omega

/-- The second window's block at `t` is batch `t / 8` of the second argument. -/
theorem iblk1_eq (c : Dev nD) (t : Fin cfg0.N) :
    (iblk m c 1 t : Vec Ideal S1x4096x128 .f32) = batch (V m c main_arg1) (bOf t) := by
  obtain ⟨-, -, -, e0, e1, e2, -⟩ := idx_facts t
  funext y
  unfold iblk batch
  rw [View.read_apply]
  show V m c main_arg1 (((cfg0.win 1).blk t).view.emb y) = V m c main_arg1 (ix3 (bOf t) (y 1) (y 2))
  refine congrArg (V m c main_arg1) (funext fun a => Fin.ext ?_)
  match a with
  | ⟨0, _⟩ => show win0_1.index t (0 : Fin 3) * 1 + 1 * (y 0).val = t.val / 8; have hy : (y 0).val < 1 := (y 0).isLt; omega
  | ⟨1, _⟩ => show win0_1.index t (1 : Fin 3) * 4096 + 1 * (y 1).val = (y 1).val; omega
  | ⟨2, _⟩ => show win0_1.index t (2 : Fin 3) * 128 + 1 * (y 2).val = (y 2).val; omega

/-- What a grid point leaves when the carried buffers hold the narrowed copies `ks`, `kg`. -/
abbrev leaves (c : Dev nD) (t : Fin cfg0.N) (ks kg : Vec Ideal S4096x128 .bf16) :
    Vec Ideal S1x512x128 .f32 × Vec Ideal S4096x128 .bf16 × Vec Ideal S4096x128 .bf16 :=
  (outBlock (grid0.coords t) (batch (V m c main_arg0) (bOf t)) (batch (V m c main_arg1) (bOf t)) ks kg, ks, kg)

/-- A first point of a batch: it stores the copies of its own blocks and computes from them. -/
theorem first_point (c : Dev nD) (t : Fin cfg0.N) (h0 : t.val % 8 = 0) :
    outsAt0 m c t.val t.isLt
      = leaves m c t (k0_pay2 (batch (V m c main_arg0) (bOf t))) (k0_pay3 (batch (V m c main_arg1) (bOf t))) := by
  refine (outsAt0_A m c t h0).trans ?_
  rw [iblk0_eq m c t, iblk1_eq m c t]
  exact congr (congrArg Prod.mk (out_first c (grid0.coords t) (ms0_0 t) (hs0_0 t) (ms0_1 t) (hs0_1 t) (ms0_2 t) (hs0_2 t) scM0_0
      (Memref.isWhole_whole _) scM0_1 (Memref.isWhole_whole _) ((hcond0_0 t).mpr h0) _ _))
    (congr (congrArg Prod.mk (carried0_first c (grid0.coords t) (ms0_0 t) (hs0_0 t) (ms0_1 t) (hs0_1 t) (ms0_2 t) (hs0_2 t) scM0_0
      (Memref.isWhole_whole _) scM0_1 (Memref.isWhole_whole _) ((hcond0_0 t).mpr h0) _ _))
      (carried1_first c (grid0.coords t) (ms0_0 t) (hs0_0 t) (ms0_1 t) (hs0_1 t) (ms0_2 t) (hs0_2 t) scM0_0
      (Memref.isWhole_whole _) scM0_1 (Memref.isWhole_whole _) ((hcond0_0 t).mpr h0) _ _))

/-- A later point of a batch: the carried buffers stay as the point before left them. -/
theorem later_point (c : Dev nD) (t : Fin cfg0.N) (h0 : ¬t.val % 8 = 0) :
    outsAt0 m c t.val t.isLt
      = leaves m c t (outsAt0 m c (t.val - 1) (Nat.lt_of_le_of_lt (Nat.sub_le _ _) t.isLt)).2.1
          (outsAt0 m c (t.val - 1) (Nat.lt_of_le_of_lt (Nat.sub_le _ _) t.isLt)).2.2 := by
  refine (outsAt0_B m c t h0).trans ?_
  rw [iblk0_eq m c t, iblk1_eq m c t]
  exact congr (congrArg Prod.mk (out_later c (grid0.coords t) (ms0_0 t) (hs0_0 t) (ms0_1 t) (hs0_1 t) (ms0_2 t) (hs0_2 t) scM0_0
      (Memref.isWhole_whole _) scM0_1 (Memref.isWhole_whole _) (fun h => h0 ((hcond0_0 t).mp h)) _ _ _ _)) rfl

/-- After every grid point the carried buffers hold the narrowed copies of that point's batch. -/
theorem carried (c : Dev nD) : ∀ (n : ℕ) (h : n < cfg0.N),
    (outsAt0 m c n h).2.1 = k0_pay2 (batch (V m c main_arg0) (bOf ⟨n, h⟩))
    ∧ (outsAt0 m c n h).2.2 = k0_pay3 (batch (V m c main_arg1) (bOf ⟨n, h⟩))
  | 0, h => by
    rw [show outsAt0 m c 0 h = _ from first_point m c ⟨0, h⟩ rfl]
    exact ⟨rfl, rfl⟩
  | n + 1, h => by
    by_cases h0 : (n + 1) % 8 = 0
    · rw [show outsAt0 m c (n + 1) h = _ from first_point m c ⟨n + 1, h⟩ h0]
      exact ⟨rfl, rfl⟩
    · obtain ⟨i0, i1⟩ := carried c n (Nat.lt_of_succ_lt h)
      have hb : bOf ⟨n, Nat.lt_of_succ_lt h⟩ = bOf ⟨n + 1, h⟩ := Fin.ext (by show n / 8 = (n + 1) / 8; omega)
      rw [show outsAt0 m c (n + 1) h = _ from later_point m c ⟨n + 1, h⟩ h0]
      refine ⟨?_, ?_⟩
      · show (outsAt0 m c n _).2.1 = _
        rw [i0, hb]
      · show (outsAt0 m c n _).2.2 = _
        rw [i1, hb]

/-- So every grid point stores the block computed from the narrowed copies of its batch. -/
theorem stored (c : Dev nD) (t : Fin cfg0.N) :
    (outsAt0 m c t.val t.isLt).1
      = outBlock (grid0.coords t) (batch (V m c main_arg0) (bOf t)) (batch (V m c main_arg1) (bOf t))
          (k0_pay2 (batch (V m c main_arg0) (bOf t))) (k0_pay3 (batch (V m c main_arg1) (bOf t))) := by
  by_cases h0 : t.val % 8 = 0
  · rw [first_point m c t h0]
  · have hpos : t.val ≠ 0 := fun hz => h0 (by rw [hz])
    obtain ⟨i0, i1⟩ := carried m c (t.val - 1) (Nat.lt_of_le_of_lt (Nat.sub_le _ _) t.isLt)
    have hb : bOf ⟨t.val - 1, Nat.lt_of_le_of_lt (Nat.sub_le _ _) t.isLt⟩ = bOf t :=
      Fin.ext (by show (t.val - 1) / 8 = t.val / 8; omega)
    rw [later_point m c t h0, i0, i1, hb]

/-- The query rows of grid point `i`: row `r` of the 512 is row `512·i₁ + r` of the batch. -/
theorem qrows_apply (i : grid0.Coords) (x : Vec Ideal S1x4096x128 .f32) (r : Fin 512) (e : Fin 128) (n : Fin 4096)
    (hn : n.val = 512 * (i 1).val + r.val) : qrows i x (ix3 (0 : Fin 1) r e) = x (ix3 (0 : Fin 1) n e) := by
  unfold qrows
  show x ((Rect.unit (s := S1x4096x128) (k0_off1 i) S1x512x128.size (k0_off1_inb i)).idx (ix3 (0 : Fin 1) r e)) = _
  refine congrArg x (funext fun a => Fin.ext ?_)
  have hoff := k0_off1_eq i
  match a with
  | ⟨0, _⟩ => show k0_off1 i 0 + 1 * 0 = 0; rw [hoff]; rfl
  | ⟨1, _⟩ => show k0_off1 i 1 + 1 * r.val = n.val; rw [hoff, hn]; show 512 * (i 1).val + 1 * r.val = _; omega
  | ⟨2, _⟩ => show k0_off1 i 2 + 1 * e.val = e.val; rw [hoff]; show 0 + 1 * e.val = e.val; omega

/-- The stored block at row `r`, feature `d` is the result at batch `t / 8`, row `512·(t % 8) + r`, feature `d`. -/
theorem stored_at (c : Dev nD) (t : Fin cfg0.N) (u : Fin 1) (r : Fin 512) (d : Fin 128) (n : Fin 4096)
    (hn : n.val = 512 * (t.val % 8) + r.val) :
    (outsAt0 m c t.val t.isLt).1 (ix3 u r d) = out (V m c main_arg0) (V m c main_arg1) (bOf t) n d := by
  obtain rfl : u = 0 := Subsingleton.elim _ _
  have hi : n.val = 512 * ((grid0.coords t) 1).val + r.val := by rw [(idx_facts t).2.2.2.2.2.2.2.2.2]; exact hn
  rw [stored m c t]
  unfold outBlock
  rw [stored_apply]
  unfold out
  simp only [copy_apply, copy_apply', qrows_apply (grid0.coords t) _ r _ n hi, batch_apply]

/-- What point `t` writes back is block `t` of the one array `outArr` of the two arguments. -/
theorem flushed_eq (c : Dev nD) (t : Fin cfg0.N) :
    (dats m 0 c).flushed 2 t = ((cfg0.win 2).blk t).view.read (Elt Ideal) (outArr (V m c main_arg0) (V m c main_arg1)) := by
  obtain ⟨-, -, -, -, -, -, e0, e1, e2, -⟩ := idx_facts t
  rw [Value.flushed2]
  funext j
  rw [View.read_apply]
  obtain ⟨u, r, d, rfl⟩ : ∃ (u : Fin 1) (r : Fin 512) (d : Fin 128), j = ix3 u r d :=
    ⟨j 0, j 1, j 2, eq_ix3 (n0 := 1) (n1 := 512) (n2 := 128) j⟩
  have hr : r.val < 512 := r.isLt
  have hu : u.val < 1 := u.isLt
  have ht : t.val < 32 := lt_of_lt_of_eq t.isLt hN
  show (outsAt0 m c t.val t.isLt).1 (ix3 u r d) = outArr (V m c main_arg0) (V m c main_arg1) (((cfg0.win 2).blk t).view.emb (ix3 u r d))
  rw [stored_at m c t u r d ⟨512 * (t.val % 8) + r.val, by omega⟩ rfl]
  have hemb : ((cfg0.win 2).blk t).view.emb (ix3 u r d) = ix3 (bOf t) (⟨512 * (t.val % 8) + r.val, by omega⟩ : Fin 4096) d := by
    funext a; apply Fin.ext
    match a with
    | ⟨0, _⟩ => show win0_2.index t (0 : Fin 3) * 1 + 1 * u.val = t.val / 8; omega
    | ⟨1, _⟩ => show win0_2.index t (1 : Fin 3) * 512 + 1 * r.val = 512 * (t.val % 8) + r.val; omega
    | ⟨2, _⟩ => show win0_2.index t (2 : Fin 3) * 128 + 1 * d.val = d.val; omega
  rw [hemb]
  rfl

/-- An index of the result array is in point `t`'s block iff each coordinate is in the block's range on its axis. -/
theorem mem_blk (t : Fin cfg0.N) (i : S4x4096x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v0).slice (win0_2.rect t)).set ↔ _
  rw [View.set_slice_whole, Rect.mem_set_unit]
  exact Iff.rfl

/-- Every index of the result array is in the block of the point `8·b + n / 512`. -/
theorem cover (i : S4x4096x128.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 128 := (i 2).isLt
  let t : Fin cfg0.N := ⟨8 * (i 0).val + (i 1).val / 512, by have := hN; omega⟩
  obtain ⟨-, -, -, -, -, -, e0, e1, e2, -⟩ := idx_facts t
  have tv : t.val = 8 * (i 0).val + (i 1).val / 512 := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- The result array after the run is `outArr` of the argument arrays. -/
theorem final (c : Dev nD) :
    (dats m 0 c).arrAt 2 cfg0.N = outArr (m ((c : Thread nD τ).loc main_arg0)) (m ((c : Thread nD τ).loc main_arg1)) :=
  (dats m 0 c).arrAt_eq_of_cover 2 (outArr (V m c main_arg0) (V m c main_arg1)) (fun t _ => flushed_eq m c t) cover

/-- The kernel's run: it ends with the result array at `outArr` of the arguments, the arguments unchanged. -/
theorem run : θ_run defs (onTc (τ := τ) (main (F := Ideal))) ⟨m, fun _ => 0, ρ⟩ fun r => ∀ c : Dev nD,
      r.2.mem ((c : Thread nD τ).loc main_v0) = outArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefRead.lean ====
import proofs.«147547_j70214125355259_2_alg».proof.Proof.Spec
import proofs.«147547_j70214125355259_2_alg».proof.Proof.Gen.ReferenceIdeal.Read
import Idealize.ShloMosaic.Lib.ValueIdx
import Idealize.ShloMosaic.PureOps.Ideal.Laws
import Idealize.ShloMosaic.PureOps.Reduce

/-!
The reference program read at one index.

The reference forms the similarity array `s (b, n, k) = (∑ e, x0 (b, n, e) · x1 (b, k, e)) · scale`, takes a softmax of
each row of it (the row's maximum folded from `floor`, compared with `floor` once more, subtracted; the exponentials;
their sum counted from zero; each exponential divided by that sum), multiplies the softmax with `x1`, does the same with
the transposed similarity array and `x0`, and returns one half of the sum of the two products. Each stage is read here at
explicit coordinates, and the result at `(b, n, d)` is `half` times the sum of the two `avgEarly` averages of `Spec`.
-/

noncomputable section

namespace Cert.RefRead

open Cert.ReferenceIdeal Cert.ReferenceIdeal.Gen Cert.ReferenceIdeal.Read Cert.SoftAvg Idealize.ShloMosaic Idealize.ShloMosaic.ValueIdx

/-- The type of the two argument arrays. -/
abbrev Arr := (⟨S4x4096x128, .f32⟩ : BufTy).Contents (Elt Ideal)

/-- Row `n` of the first array against every row `k` of the second, in batch `b`. -/
abbrev simA (x0 x1 : Arr) (b : Fin 4) (n : Fin 4096) : Fin 4096 → EReal :=
  fun k => sim (fun e => x0 (ix3 b n e)) (fun e => x1 (ix3 b k e))

/-- Every row `k` of the first array against row `n` of the second, in batch `b`. -/
abbrev simB (x0 x1 : Arr) (b : Fin 4) (n : Fin 4096) : Fin 4096 → EReal :=
  fun k => sim (fun e => x0 (ix3 b k e)) (fun e => x1 (ix3 b n e))

/-- One entry of a row softmax as the reference computes it. -/
abbrev soft (s : Fin 4096 → EReal) (k : Fin 4096) : EReal :=
  Ideal.div (Ideal.exp (s k - max floor (rowMax s)))
    (Ideal.ofBits .f32 0x00000000#32 + ∑ j', Ideal.exp (s j' - max floor (rowMax s)))

/-- A fold of the host's maximum is a fold of `max`. -/
theorem fold_maximumf {M : ℕ} (c : EReal) (g : Fin M → EReal) :
    (Finset.univ : Finset (Fin M)).fold (FloatOps.maximumf (F := Ideal) (φ := .f32)) c g
      = (Finset.univ : Finset (Fin M)).fold max c g := rfl

/-! ## The similarity array -/

/-- The scaled inner product at `(b, n, k)`. -/
theorem v2_at (x0 x1 : Arr) (b : Fin 4) (n k : Fin 4096) :
    val_main_v2 (F := Ideal) x0 x1 (ix3 b n k) = simA x0 x1 b n k := by
  rw [val_main_v2_apply, val_main_v0_apply, val_main_v1_apply, val_main_cst_apply]
  have hl : ∀ e : Fin 128, lidx_main_v0 (ix3 b n k) e = ix3 b n e := fun e =>
    funext fun a => Fin.ext (by match a with | ⟨0, _⟩ => rfl | ⟨1, _⟩ => rfl | ⟨2, _⟩ => rfl)
  have hr : ∀ e : Fin 128, ridx_main_v0 (ix3 b n k) e = ix3 b k e := fun e =>
    funext fun a => Fin.ext (by match a with | ⟨0, _⟩ => rfl | ⟨1, _⟩ => rfl | ⟨2, _⟩ => rfl)
  simp only [hl, hr]
  rfl

/-! ## The softmax of a row of the similarity array -/

/-- The row's maximum, folded from `floor`. -/
theorem v3_at (x0 x1 : Arr) (b : Fin 4) (n : Fin 4096) :
    val_main_v3 (F := Ideal) x0 x1 (ix2 b n) = rowMax (simA x0 x1 b n) := by
  have h : S4x4096x4096.Reduces [2] S4x4096 := by decide
  have hg : (val_main_v2 (F := Ideal) x0 x1 ∘ h.lift (ix2 b n)) = simA x0 x1 b n :=
    funext fun k => (congrArg (val_main_v2 (F := Ideal) x0 x1) (funext fun a => Fin.ext (by
      match a with | ⟨0, _⟩ => rfl | ⟨1, _⟩ => rfl | ⟨2, _⟩ => rfl))).trans (v2_at x0 x1 b n k)
  unfold val_main_v3
  refine (Host.reduce_eq_fold_single FloatOps.maximumf _ _ reducesTo_S4x4096x4096_S4x4096_d2 h h_S_ (ix2 b n)).trans ?_
  refine (fold_maximumf _ _).trans ?_
  exact congrArg (fun g => (Finset.univ : Finset (Fin 4096)).fold max floor g) hg

/-- The maximum compared with `floor` once more. -/
theorem v5_at (x0 x1 : Arr) (b : Fin 4) (n : Fin 4096) :
    val_main_v5 (F := Ideal) x0 x1 (ix2 b n) = max floor (rowMax (simA x0 x1 b n)) := by
  rw [val_main_v5_apply, val_main_v4_apply, val_main_cst_1_apply, v3_at]
  rfl

/-- The maximum spread back over the row. -/
theorem v7_at (x0 x1 : Arr) (b : Fin 4) (n k : Fin 4096) :
    val_main_v7 (F := Ideal) x0 x1 (ix3 b n k) = max floor (rowMax (simA x0 x1 b n)) := by
  rw [val_main_v7_apply, val_main_v6_apply, ← v5_at]
  exact congrArg _ (funext fun a => Fin.ext (by match a with | ⟨0, _⟩ => rfl | ⟨1, _⟩ => rfl))

/-- The exponential of an entry's distance below the maximum. -/
theorem v9_at (x0 x1 : Arr) (b : Fin 4) (n k : Fin 4096) :
    val_main_v9 (F := Ideal) x0 x1 (ix3 b n k)
      = Ideal.exp (simA x0 x1 b n k - max floor (rowMax (simA x0 x1 b n))) := by
  rw [val_main_v9_apply, val_main_v8_apply, v7_at, v2_at]
  rfl

/-- The normalizing sum, counted from zero. -/
theorem v10_at (x0 x1 : Arr) (b : Fin 4) (n : Fin 4096) :
    val_main_v10 (F := Ideal) x0 x1 (ix2 b n)
      = Ideal.ofBits .f32 0x00000000#32
        + ∑ j', Ideal.exp (simA x0 x1 b n j' - max floor (rowMax (simA x0 x1 b n))) := by
  rw [val_main_v10_apply, val_main_cst_2_apply]
  refine congrArg₂ (· + ·) rfl (Finset.sum_congr rfl fun k _ => ?_)
  refine (congrArg (val_main_v9 (F := Ideal) x0 x1) (funext fun a => Fin.ext (by
    match a with | ⟨0, _⟩ => rfl | ⟨1, _⟩ => rfl | ⟨2, _⟩ => rfl))).trans (v9_at x0 x1 b n k)

/-- The normalizing sum spread back over the row. -/
theorem v12_at (x0 x1 : Arr) (b : Fin 4) (n k : Fin 4096) :
    val_main_v12 (F := Ideal) x0 x1 (ix3 b n k)
      = Ideal.ofBits .f32 0x00000000#32
        + ∑ j', Ideal.exp (simA x0 x1 b n j' - max floor (rowMax (simA x0 x1 b n))) := by
  rw [val_main_v12_apply, val_main_v11_apply, ← v10_at]
  exact congrArg _ (funext fun a => Fin.ext (by match a with | ⟨0, _⟩ => rfl | ⟨1, _⟩ => rfl))

/-- One entry of the softmax. -/
theorem v13_at (x0 x1 : Arr) (b : Fin 4) (n k : Fin 4096) :
    val_main_v13 (F := Ideal) x0 x1 (ix3 b n k) = soft (simA x0 x1 b n) k := by
  rw [val_main_v13_apply, v9_at, v12_at]
  rfl

/-- The softmax of row `n` against the second array, times the second array: the first average. -/
theorem v26_at (x0 x1 : Arr) (b : Fin 4) (n : Fin 4096) (d : Fin 128) :
    val_main_v26 (F := Ideal) x0 x1 (ix3 b n d) = avgEarly (simA x0 x1 b n) (fun k => x1 (ix3 b k d)) := by
  rw [val_main_v26_apply]
  unfold avgEarly
  refine Finset.sum_congr rfl fun k _ => ?_
  have hl : lidx_main_v26 (ix3 b n d) k = ix3 b n k :=
    funext fun a => Fin.ext (by match a with | ⟨0, _⟩ => rfl | ⟨1, _⟩ => rfl | ⟨2, _⟩ => rfl)
  have hr : ridx_main_v26 (ix3 b n d) k = ix3 b k d :=
    funext fun a => Fin.ext (by match a with | ⟨0, _⟩ => rfl | ⟨1, _⟩ => rfl | ⟨2, _⟩ => rfl)
  rw [hl, hr, v13_at]

/-! ## The softmax of a row of the transposed similarity array -/

/-- The transposed similarity array at `(b, n, k)` is the similarity array at `(b, k, n)`. -/
theorem v14_at (x0 x1 : Arr) (b : Fin 4) (n k : Fin 4096) :
    val_main_v14 (F := Ideal) x0 x1 (ix3 b n k) = simB x0 x1 b n k := by
  rw [val_main_v14_apply]
  refine (congrArg (val_main_v2 (F := Ideal) x0 x1) (funext fun a => Fin.ext (by
    match a with | ⟨0, _⟩ => rfl | ⟨1, _⟩ => rfl | ⟨2, _⟩ => rfl))).trans (v2_at x0 x1 b k n)

/-- The row's maximum, folded from `floor`. -/
theorem v15_at (x0 x1 : Arr) (b : Fin 4) (n : Fin 4096) :
    val_main_v15 (F := Ideal) x0 x1 (ix2 b n) = rowMax (simB x0 x1 b n) := by
  have h : S4x4096x4096.Reduces [2] S4x4096 := by decide
  have hg : (val_main_v14 (F := Ideal) x0 x1 ∘ h.lift (ix2 b n)) = simB x0 x1 b n :=
    funext fun k => (congrArg (val_main_v14 (F := Ideal) x0 x1) (funext fun a => Fin.ext (by
      match a with | ⟨0, _⟩ => rfl | ⟨1, _⟩ => rfl | ⟨2, _⟩ => rfl))).trans (v14_at x0 x1 b n k)
  unfold val_main_v15
  refine (Host.reduce_eq_fold_single FloatOps.maximumf _ _ reducesTo_S4x4096x4096_S4x4096_d2 h h_S_ (ix2 b n)).trans ?_
  refine (fold_maximumf _ _).trans ?_
  exact congrArg (fun g => (Finset.univ : Finset (Fin 4096)).fold max floor g) hg

/-- The maximum compared with `floor` once more. -/
theorem v17_at (x0 x1 : Arr) (b : Fin 4) (n : Fin 4096) :
    val_main_v17 (F := Ideal) x0 x1 (ix2 b n) = max floor (rowMax (simB x0 x1 b n)) := by
  rw [val_main_v17_apply, val_main_v16_apply, val_main_cst_4_apply, v15_at]
  rfl

/-- The maximum spread back over the row. -/
theorem v19_at (x0 x1 : Arr) (b : Fin 4) (n k : Fin 4096) :
    val_main_v19 (F := Ideal) x0 x1 (ix3 b n k) = max floor (rowMax (simB x0 x1 b n)) := by
  rw [val_main_v19_apply, val_main_v18_apply, ← v17_at]
  exact congrArg _ (funext fun a => Fin.ext (by match a with | ⟨0, _⟩ => rfl | ⟨1, _⟩ => rfl))

/-- The exponential of an entry's distance below the maximum. -/
theorem v21_at (x0 x1 : Arr) (b : Fin 4) (n k : Fin 4096) :
    val_main_v21 (F := Ideal) x0 x1 (ix3 b n k)
      = Ideal.exp (simB x0 x1 b n k - max floor (rowMax (simB x0 x1 b n))) := by
  rw [val_main_v21_apply, val_main_v20_apply, v19_at, v14_at]
  rfl

/-- The normalizing sum, counted from zero. -/
theorem v22_at (x0 x1 : Arr) (b : Fin 4) (n : Fin 4096) :
    val_main_v22 (F := Ideal) x0 x1 (ix2 b n)
      = Ideal.ofBits .f32 0x00000000#32
        + ∑ j', Ideal.exp (simB x0 x1 b n j' - max floor (rowMax (simB x0 x1 b n))) := by
  rw [val_main_v22_apply, val_main_cst_5_apply]
  refine congrArg₂ (· + ·) rfl (Finset.sum_congr rfl fun k _ => ?_)
  refine (congrArg (val_main_v21 (F := Ideal) x0 x1) (funext fun a => Fin.ext (by
    match a with | ⟨0, _⟩ => rfl | ⟨1, _⟩ => rfl | ⟨2, _⟩ => rfl))).trans (v21_at x0 x1 b n k)

/-- The normalizing sum spread back over the row. -/
theorem v24_at (x0 x1 : Arr) (b : Fin 4) (n k : Fin 4096) :
    val_main_v24 (F := Ideal) x0 x1 (ix3 b n k)
      = Ideal.ofBits .f32 0x00000000#32
        + ∑ j', Ideal.exp (simB x0 x1 b n j' - max floor (rowMax (simB x0 x1 b n))) := by
  rw [val_main_v24_apply, val_main_v23_apply, ← v22_at]
  exact congrArg _ (funext fun a => Fin.ext (by match a with | ⟨0, _⟩ => rfl | ⟨1, _⟩ => rfl))

/-- One entry of the softmax. -/
theorem v25_at (x0 x1 : Arr) (b : Fin 4) (n k : Fin 4096) :
    val_main_v25 (F := Ideal) x0 x1 (ix3 b n k) = soft (simB x0 x1 b n) k := by
  rw [val_main_v25_apply, v21_at, v24_at]
  rfl

/-- The softmax of the first array's rows against row `n` of the second, times the first array: the second average. -/
theorem v27_at (x0 x1 : Arr) (b : Fin 4) (n : Fin 4096) (d : Fin 128) :
    val_main_v27 (F := Ideal) x0 x1 (ix3 b n d) = avgEarly (simB x0 x1 b n) (fun k => x0 (ix3 b k d)) := by
  rw [val_main_v27_apply]
  unfold avgEarly
  refine Finset.sum_congr rfl fun k _ => ?_
  have hl : lidx_main_v27 (ix3 b n d) k = ix3 b n k :=
    funext fun a => Fin.ext (by match a with | ⟨0, _⟩ => rfl | ⟨1, _⟩ => rfl | ⟨2, _⟩ => rfl)
  have hr : ridx_main_v27 (ix3 b n d) k = ix3 b k d :=
    funext fun a => Fin.ext (by match a with | ⟨0, _⟩ => rfl | ⟨1, _⟩ => rfl | ⟨2, _⟩ => rfl)
  rw [hl, hr, v25_at]

/-! ## The result -/

/-- The reference's result at `(b, n, d)`: one half of the sum of the two averages. -/
theorem ref_at (x0 x1 : (⟨S4x4096x128, .f32⟩ : BufTy).Contents (Elt Ideal)) (b : Fin 4) (n : Fin 4096) (d : Fin 128) :
    val_main_v30 (F := Ideal) x0 x1 (ix3 b n d)
      = half * (avgEarly (fun k => sim (fun e => x0 (ix3 b n e)) (fun e => x1 (ix3 b k e))) (fun k => x1 (ix3 b k d))
              + avgEarly (fun k => sim (fun e => x0 (ix3 b k e)) (fun e => x1 (ix3 b n e))) (fun k => x0 (ix3 b k d))) := by
  rw [val_main_v30_apply, val_main_v29_apply, val_main_cst_6_apply, val_main_v28_apply, v26_at, v27_at]
  rfl

end Cert.RefRead

end
-- ==== Proof.Softmax.lean ====
import proofs.«147547_j70214125355259_2_alg».proof.Proof.Spec

/-!
Facts about the softmax average that do not depend on either program.

* The value a row's maximum is folded from is the least extended real, and the factor of the inner products is a
  real number.
* The scaled inner product is symmetric in its two rows, and is a real number when both rows are.
* For a nonempty row of real similarities and real values, dividing every weight by the normalizing sum before
  the weighted sum gives the same average as dividing once after it: with real entries the row's maximum is a
  real number, every weight `exp (s j - max s)` is a positive real, so the normalizing sum `l` is a positive real, and
  `∑ j, (w j / l) · g j = (∑ j, w j · g j) / l` is the distributive law in `ℝ`.
-/

noncomputable section

namespace Cert.SoftAvg

open Idealize.ShloMosaic

/-- The value a row's maximum is folded from is the least extended real. -/
theorem floor_eq_bot : floor = ⊥ := by simp [Ideal.ofBits, Ideal.ieee]

/-- The factor of the inner products is the real number `11863283 / 2 ^ 27`: a positive pattern with exponent field
    `123` and significand `2 ^ 23 + 3474675 = 11863283`, that is `11863283 · 2 ^ (123 - 127 - 23)`. -/
theorem scale_real : ∃ r : ℝ, scale = (r : EReal) :=
  ⟨11863283 * (2 ^ 27)⁻¹, by simp [Ideal.ofBits, Ideal.ieee]⟩

/-- A finite sum of real numbers, taken in the extended reals, is the real sum. -/
theorem coe_sum {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The scaled inner product does not depend on which row is called the query. -/
theorem sim_comm {D : ℕ} (q k : Fin D → EReal) : sim q k = sim k q := by
  unfold sim
  congr 1
  exact Finset.sum_congr rfl fun e _ => mul_comm _ _

/-- The scaled inner product of two rows of real numbers is a real number. -/
theorem sim_real {D : ℕ} (q k : Fin D → EReal) (hq : ∀ e, ∃ r : ℝ, q e = (r : EReal))
    (hk : ∀ e, ∃ r : ℝ, k e = (r : EReal)) : ∃ r : ℝ, sim q k = (r : EReal) := by
  choose q' hq' using hq
  choose k' hk' using hk
  obtain ⟨c, hc⟩ := scale_real
  refine ⟨(∑ e, q' e * k' e) * c, ?_⟩
  unfold sim
  rw [hc, EReal.coe_mul, ← coe_sum]
  congr 1
  exact Finset.sum_congr rfl fun e _ => by rw [hq' e, hk' e, EReal.coe_mul]

/-- The maximum of a nonempty row of real numbers is a real number: it is below `⊤` because every entry and the
    starting value are, and above `⊥` because the first entry is. -/
theorem rowMax_real {M : ℕ} [NeZero M] (s' : Fin M → ℝ) :
    ∃ mx : ℝ, rowMax (fun j => (s' j : EReal)) = (mx : EReal) := by
  have htop : rowMax (fun j => (s' j : EReal)) < ⊤ := by
    unfold rowMax
    rw [Finset.fold_max_lt]
    refine ⟨?_, fun j _ => EReal.coe_lt_top _⟩
    rw [floor_eq_bot]
    exact bot_lt_top
  have hbot : ⊥ < rowMax (fun j => (s' j : EReal)) := by
    unfold rowMax
    rw [Finset.lt_fold_max]
    exact Or.inr ⟨0, Finset.mem_univ _, EReal.bot_lt_coe _⟩
  exact ⟨_, (EReal.coe_toReal htop.ne hbot.ne').symm⟩

/-- With real similarities and real values over a nonempty row, normalizing the weights first or the weighted sum
    last gives the same average. -/
theorem avgEarly_eq_avgLate {M : ℕ} [NeZero M] (s g : Fin M → EReal)
    (hs : ∀ j, ∃ r : ℝ, s j = (r : EReal)) (hg : ∀ j, ∃ r : ℝ, g j = (r : EReal)) :
    avgEarly s g = avgLate s g := by
  choose s' hs' using hs
  choose g' hg' using hg
  obtain rfl : s = fun j => (s' j : EReal) := funext hs'
  obtain rfl : g = fun j => (g' j : EReal) := funext hg'
  obtain ⟨mx, hmx⟩ := rowMax_real s'
  have hmax : max floor (rowMax fun j => (s' j : EReal)) = rowMax fun j => (s' j : EReal) := by
    rw [floor_eq_bot]
    exact max_eq_right bot_le
  have hexp : ∀ j, Ideal.exp ((s' j : EReal) - (mx : EReal)) = ((Real.exp (s' j - mx) : ℝ) : EReal) :=
    fun j => by rw [← EReal.coe_sub]; rfl
  have hl : (∑ j, Real.exp (s' j - mx)) ≠ 0 :=
    (Finset.sum_pos (fun j _ => Real.exp_pos _) ⟨0, Finset.mem_univ _⟩).ne'
  unfold avgEarly avgLate wt
  rw [hmax, hmx, Ideal.ofBits_zero_f32, zero_add]
  simp only [hexp]
  rw [coe_sum]
  simp only [Ideal.div_coe hl, ← EReal.coe_mul, coe_sum]
  congr 1
  rw [Finset.sum_mul]
  exact Finset.sum_congr rfl fun j _ => by ring

end Cert.SoftAvg

end
-- ==== Proof.Finite.lean ====
import proofs.«147547_j70214125355259_2_alg».proof.Pre_finite_inputs
import Idealize.ShloMosaic.Lib.ReduceAll
import Idealize.ShloMosaic.Lib.ValueIdx
import Idealize.ShloMosaic.PureOps.Ideal.Laws

/-!
What the precondition says about the two input arrays.

The precondition is the conjunction of two tests, one per array: "for every index, the absolute value of the entry
is below `+∞`", each folded by `and` over all indices into a single truth value. Over the extended reals the absolute
value of `x` is `max x (-x)`, which is `⊤` at both infinities, so the test at an entry holds exactly when the entry is a
real number. Hence, when the precondition evaluates to true, every entry of both arrays is a real number.
-/

noncomputable section

namespace Cert.FiniteIn

open Idealize.ShloMosaic Idealize.ShloMosaic.ValueIdx

/-- An extended real whose absolute value `max x (-x)` compares below `+∞` is a real number: at `⊥` and at `⊤` the
    absolute value is `⊤`, which is not below itself. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- A rank-0 array has a single index. -/
instance : Subsingleton Cert.Pre_finite_inputs.S_.Idx := ⟨fun _ _ => funext fun d => d.elim0⟩

/-- When the precondition evaluates to true, every entry of both input arrays is a real number. -/
theorem real_of_pre [Cert.Pre_finite_inputs.Facts]
    (x0 x1 : FVec Ideal Cert.Pre_finite_inputs.S4x4096x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ix0
  dsimp only [Cert.Pre_finite_inputs.fn] at e
  simp only [andi, IntOp.andi_eq_one] at e
  obtain ⟨e0, e1⟩ := e
  exact ⟨fun i => real_of_abs_lt (x0 i) (Host.reduce_andi_all _ _ _ _ _ e0 i),
    fun i => real_of_abs_lt (x1 i) (Host.reduce_andi_all _ _ _ _ _ e1 i)⟩

end Cert.FiniteIn

end
-- ==== Proof.Claims.lean ====
import proofs.«147547_j70214125355259_2_alg».proof.Defs
import proofs.«147547_j70214125355259_2_alg».proof.Proof.Gen.Kernel.Frame
import proofs.«147547_j70214125355259_2_alg».proof.Proof.Gen.KernelIdeal.Frame
import proofs.«147547_j70214125355259_2_alg».proof.Proof.Gen.ReferenceIdeal.Run
import proofs.«147547_j70214125355259_2_alg».proof.Proof.Gen.ReferenceIdeal.Read
import proofs.«147547_j70214125355259_2_alg».proof.Proof.Gen.Pre_finite_inputs
import proofs.«147547_j70214125355259_2_alg».proof.Proof.Blocks
import proofs.«147547_j70214125355259_2_alg».proof.Proof.RefRead
import proofs.«147547_j70214125355259_2_alg».proof.Proof.Softmax
import proofs.«147547_j70214125355259_2_alg».proof.Proof.Finite

/-!
The five claims.

Over the extended reals the kernel's result array ends as `outArr` of its two arguments (the kernel keeps the
division of each softmax average for last). The reference's result is, index by index, one half of the sum of two
softmax averages with the weights normalized first; under the precondition every entry of both arguments is a real
number, so every similarity is real and each such average equals the average with the division last. The second
average of the reference takes its similarities as (row of the first array) · (row of the second), the kernel's as
(row of the second) · (row of the first): the same number. So both programs end at `outArr` of arguments that agree.
-/

noncomputable section

namespace Cert.Proof.Claims

open Idealize.ShloMosaic Idealize.ShloMosaic.TcCoe Idealize.SL.Sem Idealize.ShloMosaic.ValueIdx Cert.SoftAvg

/-- With real entries the reference's result array is `outArr` of its two arguments. -/
theorem ref_eq (x0 x1 : (⟨3, ![4, 4096, 128]⟩ : Shape).Idx → EReal) (h0 : ∀ i, ∃ r : ℝ, x0 i = (r : EReal))
    (h1 : ∀ i, ∃ r : ℝ, x1 i = (r : EReal)) :
    Cert.ReferenceIdeal.Read.val_main_v30 (F := Ideal) x0 x1 = outArr x0 x1 := by
  funext i
  obtain ⟨b, n, d, rfl⟩ : ∃ (b : Fin 4) (n : Fin 4096) (d : Fin 128), i = ix3 b n d := ⟨i 0, i 1, i 2, eq_ix3 i⟩
  rw [Cert.RefRead.ref_at]
  show _ = out x0 x1 b n d
  unfold out
  rw [avgEarly_eq_avgLate _ _ (fun k => sim_real _ _ (fun e => h0 _) (fun e => h1 _)) (fun k => h1 _),
    avgEarly_eq_avgLate _ _ (fun k => sim_real _ _ (fun e => h0 _) (fun e => h1 _)) (fun k => h0 _)]
  have hs : (fun k : Fin 4096 => sim (fun e => x0 (ix3 b k e)) (fun e => x1 (ix3 b n e)))
      = fun k : Fin 4096 => sim (fun e => x1 (ix3 b n e)) (fun e => x0 (ix3 b k e)) := funext fun k => sim_comm _ _
  rw [hs]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `outArr` of the (agreeing, real-valued) arguments. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2]
  obtain ⟨f0, f1⟩ := Cert.FiniteIn.real_of_pre _ _ (hpre c)
  exact ref_eq _ _ f0 f1

end Cert.Proof.Claims

end
-- ==== Proof.lean ====
/- The proof of `Cert.Claim`: the three frames, the (empty) idealization ledger, and the equality of the two
   idealized programs' results over the extended reals. The mathematics is in `Proof/Spec.lean` (the one function
   both programs compute), `Proof/Softmax.lean` (normalizing the softmax weights first or last gives the same average
   on real numbers), `Proof/Payload.lean` and `Proof/Blocks.lean` (the kernel's result array is that function of its
   arguments), `Proof/RefRead.lean` (so is the reference's, with the weights normalized first), `Proof/Finite.lean`
   (the precondition makes every entry a real number) and `Proof/Claims.lean` (the five claims). -/
import proofs.«147547_j70214125355259_2_alg».proof.Defs
import proofs.«147547_j70214125355259_2_alg».proof.Proof.Gen.Kernel
import proofs.«147547_j70214125355259_2_alg».proof.Proof.Gen.Kernel.Skeleton
import proofs.«147547_j70214125355259_2_alg».proof.Proof.Gen.Kernel.Launch
import proofs.«147547_j70214125355259_2_alg».proof.Proof.Gen.Kernel.Points
import proofs.«147547_j70214125355259_2_alg».proof.Proof.Gen.Kernel.Frame
import proofs.«147547_j70214125355259_2_alg».proof.Proof.Gen.KernelIdeal
import proofs.«147547_j70214125355259_2_alg».proof.Proof.Gen.KernelIdeal.Skeleton
import proofs.«147547_j70214125355259_2_alg».proof.Proof.Gen.KernelIdeal.Launch
import proofs.«147547_j70214125355259_2_alg».proof.Proof.Gen.KernelIdeal.Points
import proofs.«147547_j70214125355259_2_alg».proof.Proof.Gen.KernelIdeal.Frame
import proofs.«147547_j70214125355259_2_alg».proof.Proof.Gen.ReferenceIdeal
import proofs.«147547_j70214125355259_2_alg».proof.Proof.Gen.Pre_finite_inputs
import proofs.«147547_j70214125355259_2_alg».proof.Proof.Gen.KernelIdeal.Value
import proofs.«147547_j70214125355259_2_alg».proof.Proof.Gen.ReferenceIdeal.Run
import proofs.«147547_j70214125355259_2_alg».proof.Proof.Gen.ReferenceIdeal.Read
import proofs.«147547_j70214125355259_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
